-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x128 : Shape := ⟨2, ![600000, 128]⟩
abbrev S1x128 : Shape := ⟨2, ![1, 128]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S1x128 : S_.BroadcastsInDim S1x128 (![] : Fin 0 → Fin S1x128.rank)
  reducesTo_S1x128_S_d0_1 : S1x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S600000x128 .f32) (main_arg3 : FVec F S1x128 .f32) (main_arg4 : FVec F S384x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S600000x128 : Shape := ⟨2, ![600000, 128]⟩
abbrev S1x128 : Shape := ⟨2, ![1, 128]⟩
abbrev S384x128 : Shape := ⟨2, ![384, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S5000x128 : Shape := ⟨2, ![5000, 128]⟩

abbrev nBuf : Space → Nat
  | .hbm => 40
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S1x128, .f32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S100000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S100000x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S128x128, .bf16⟩
  | .hbm, ⟨35, _⟩ => ⟨S128x128, .bf16⟩
  | .hbm, ⟨36, _⟩ => ⟨S128x128, .bf16⟩
  | .hbm, ⟨37, _⟩ => ⟨S128x128, .bf16⟩
  | .hbm, ⟨38, _⟩ => ⟨S128x128, .bf16⟩
  | .hbm, ⟨39, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S128x128, .bf16⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x600000_S1x600000_0_0 : S2x600000.Slices ![0, 0] S1x600000
  shapeCasts_S1x600000_S600000 : S1x600000.ShapeCasts S600000
  bcast_S_S100000x128 : S_.BroadcastsInDim S100000x128 (![] : Fin 0 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  bcast_S128_S1x128_1 : S128.BroadcastsInDim S1x128 (![1] : Fin 1 → Fin S1x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000x128_S600000x1_S600000x128_1_0_0_1_wf : ScatterDims.WF S100000x128 S600000x1 S600000x128 [1] [0] [0] 1
  dot_S1x128_S128x128_S1x128_1_0_0_1_n_n_wf : DotDims.WF S1x128 S128x128 S1x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S100000x128.size a
  hwx0_11 : ∀ i : grid0.Coords, EltTy.bits .f32 = 32 ∨ (Rect.block (s := S100000x128) S5000x128.size (cc0_transform_11 i) (hinb0_11 i)).WholeWords (EltTy.packing .f32)

variable [Facts₀]

def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x128 : Shape := ⟨2, ![600000, 128]⟩
abbrev S1x128 : Shape := ⟨2, ![1, 128]⟩
abbrev S384x128 : Shape := ⟨2, ![384, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x100000x128 : Shape := ⟨3, ![1, 100000, 128]⟩
abbrev S100000x384 : Shape := ⟨2, ![100000, 384]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S1x128, .f32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S100000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S100000x128, .f32⟩
  | .hbm, ⟨25, _⟩ => ⟨S1x100000x128, .f32⟩
  | .hbm, ⟨26, _⟩ => ⟨S100000x128, .f32⟩
  | .hbm, ⟨27, _⟩ => ⟨S100000x384, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .i1⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S100000x128, .i1⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S100000x128 : S_.BroadcastsInDim S100000x128 (![] : Fin 0 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S1x128_S1x100000x128_0_2 : S1x128.BroadcastsInDim S1x100000x128 (![0, 2] : Fin 2 → Fin S1x100000x128.rank)
  shapeCasts_S1x100000x128_S100000x128 : S1x100000x128.ShapeCasts S100000x128
  concatenates_S100000x128_S100000x128_S100000x128_S100000x384_d1 : Shape.Concatenates [S100000x128, S100000x128, S100000x128] S100000x384 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x128_S600000x1_S600000x128_1_0_0_1_wf : ScatterDims.WF S100000x128 S600000x1 S600000x128 [1] [0] [0] 1
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []

variable [Facts₀]

def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Softplus.lean ====
/-
  Softplus on the extended reals, as both programs spell it.

  Both programs compute softplus as logaddexp(z, 0): with δ = z - 0 it is z + 0 where δ ≠ δ (a NaN test) and
  max z 0 + log1p (exp (-|δ|)) elsewhere. On the extended reals no value differs from itself, so the
  guard never fires and the result is sp z = max z 0 + log1p (exp (-|z - 0|)), |a| being max a (-a).
  The kernel writes the negation as 0 - |δ| and tests "ordered and unequal", the host negates and tests
  "unordered or unequal"; at the extended reals the two tests are one comparison and 0 - a = -a.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.NodeMlp

/-- softplus of one extended real: max z 0 + log (1 + e^(-|z - 0|)). -/
def sp (z : EReal) : EReal :=
  max z 0 + Ideal.log1p (Ideal.exp (-(max (z - 0) (-(z - 0)))))

/-- No extended real differs from itself: the NaN guard's bit is 0 under either spelling of "unequal". -/
theorem cmp_one_self (a : EReal) : Ideal.cmp .one a a = 0#1 := by
  simp [Ideal.cmp]

theorem cmp_une_self (a : EReal) : Ideal.cmp .une a a = 0#1 := by
  simp [Ideal.cmp]

/-- The kernel's spelling over a vector of any shape: the zero splat is a broadcast scalar constant, the
    negation is a subtraction from zero, the guard compares "ordered and unequal". -/
def softplusK {s : Shape} (z : FVec Ideal s .f32) : FVec Ideal s .f32 :=
  select (cmpf .one (subf z (broadcast s (Scalar.ofBits (F := Ideal) .f32 0x00000000#32)))
                    (subf z (broadcast s (Scalar.ofBits (F := Ideal) .f32 0x00000000#32))))
    (addf z (broadcast s (Scalar.ofBits (F := Ideal) .f32 0x00000000#32)))
    (addf (maximumf z (broadcast s (Scalar.ofBits (F := Ideal) .f32 0x00000000#32)))
      (log1p (exp (subf (broadcast s (Scalar.ofBits (F := Ideal) .f32 0x00000000#32))
        (absf (subf z (broadcast s (Scalar.ofBits (F := Ideal) .f32 0x00000000#32))))))))

/-- Read at an index, the kernel's spelling is sp of the entry. -/
theorem softplusK_apply {s : Shape} (z : FVec Ideal s .f32) (i : s.Idx) : softplusK z i = sp (z i) := by
  show Scalar.select (Ideal.cmp .one (z i - Ideal.ofBits .f32 0x00000000#32) (z i - Ideal.ofBits .f32 0x00000000#32))
      (z i + Ideal.ofBits .f32 0x00000000#32)
      (max (z i) (Ideal.ofBits .f32 0x00000000#32)
        + Ideal.log1p (Ideal.exp (Ideal.ofBits .f32 0x00000000#32
            - max (z i - Ideal.ofBits .f32 0x00000000#32) (-(z i - Ideal.ofBits .f32 0x00000000#32))))) = _
  rw [cmp_one_self, select_zero, Ideal.ofBits_zero_f32, sub_eq_add_neg (0 : EReal), zero_add]
  rfl

/-- The host's spelling over a vector of any shape, the zero array a parameter: the guard compares "unordered or
    unequal", the negation is a negation, exp / log1p / abs are the host's. -/
def softplusH {s : Shape} (zero z : FVec Ideal s .f32) : FVec Ideal s .f32 :=
  select (cmpf .une (subf z zero) (subf z zero)) (addf z zero)
    (addf (maximumf z zero) (Host.log1p (Host.exp (Host.negf (Host.absf (subf z zero))))))

/-- Read at an index where the zero array holds 0, the host's spelling is sp of the entry. -/
theorem softplusH_apply {s : Shape} (zero z : FVec Ideal s .f32) (i : s.Idx) (h0 : zero i = 0) :
    softplusH zero z i = sp (z i) := by
  show Scalar.select (Ideal.cmp .une (z i - zero i) (z i - zero i)) (z i + zero i)
      (max (z i) (zero i) + Ideal.log1p (Ideal.exp (-(max (z i - zero i) (-(z i - zero i)))))) = _
  rw [cmp_une_self, select_zero, h0]
  rfl

end Cert.NodeMlp

end
-- ==== Proof.Spec.lean ====
/-
  One node's feature row through the network, as a function of rows.

  A node's output row is three dense layers over its combined row c, softplus after the first two:
      tower c = dense (sp ∘ dense (sp ∘ dense c W1 b1) W2 b2) W3 b3,   dense v W b q = (Σ_k v_k W_kq) + b_q.
  The combined row is one 384-long contraction of the concatenated row [x_r | e_r | g] against W_c plus b_c;
  read in thirds it is (Σ_k x_rk W_c[k,q] + Σ_k e_rk W_c[128+k,q]) + (b_c[q] + Σ_k g_k W_c[256+k,q]):
  a finite sum over 128 + (128 + 128) indices is the sum of its three stretches, and + on the extended
  reals is commutative and associative (no cancellation or distributivity is used, so no finiteness is).
-/
import proofs.«158073_j47974784696393_2_alg».proof.Proof.Softplus

noncomputable section

open Idealize.ShloMosaic Idealize.ShloMosaic.ValueIdx

namespace Cert.NodeMlp

/-- A 128 × 128 weight matrix's index shape. -/
abbrev Sq : Shape := ⟨2, ![128, 128]⟩
/-- The node arrays' index shape: 100000 rows of 128 features. -/
abbrev Nodes : Shape := ⟨2, ![100000, 128]⟩

/-- One dense layer on a feature row: (Σ_k v_k W_kq) + b_q. -/
def dense (v : Fin 128 → EReal) (W : Sq.Idx → EReal) (b : Fin 128 → EReal) : Fin 128 → EReal :=
  fun q => (∑ k : Fin 128, v k * W (ix2 k q)) + b q

/-- The three layers after the combine step, softplus after the first two. -/
def tower (c : Fin 128 → EReal) (W1 W2 W3 : Sq.Idx → EReal) (b1 b2 b3 : Fin 128 → EReal) : Fin 128 → EReal :=
  dense (fun k => sp (dense (fun k => sp (dense c W1 b1 k)) W2 b2 k)) W3 b3

/-- The whole result array from the combined rows: entry (r, q) is the tower of row r at q. -/
def result (C : Fin 100000 → Fin 128 → EReal) (W1 W2 W3 : Sq.Idx → EReal) (b1 b2 b3 : Fin 128 → EReal) :
    Nodes.Idx → EReal :=
  fun i => tower (C (i 0)) W1 W2 W3 b1 b2 b3 (i 1)

theorem result_ix2 (C : Fin 100000 → Fin 128 → EReal) (W1 W2 W3 : Sq.Idx → EReal) (b1 b2 b3 : Fin 128 → EReal)
    (r : Fin 100000) (q : Fin 128) :
    result C W1 W2 W3 b1 b2 b3 (ix2 r q) = tower (C r) W1 W2 W3 b1 b2 b3 q := rfl

/-- A sum over 128 + (128 + 128) indices plus b, regrouped as the kernel adds it: the first two stretches, then b with
    the third. -/
theorem sum_thirds_add (f : Fin (128 + (128 + 128)) → EReal) (b : EReal) :
    (∑ κ, f κ) + b
      = ((∑ k : Fin 128, f (Fin.castAdd (128 + 128) k)) + ∑ k : Fin 128, f (Fin.natAdd 128 (Fin.castAdd 128 k)))
        + (b + ∑ k : Fin 128, f (Fin.natAdd 128 (Fin.natAdd 128 k))) := by
  rw [Fin.sum_univ_add, Fin.sum_univ_add]
  ac_rfl

/-- The concatenated rows' index shape, the combine weights' and a bias vector's and a bias row's. -/
abbrev Cat : Shape := ⟨2, ![100000, 384]⟩
abbrev Wide : Shape := ⟨2, ![384, 128]⟩
abbrev Bias : Shape := ⟨1, ![128]⟩
abbrev Row : Shape := ⟨2, ![1, 128]⟩

/-- Node r's combined row at q as the reference adds it: ONE 384-long contraction of the concatenated row, plus the bias. -/
def combRef (cat : Cat.Idx → EReal) (Wc : Wide.Idx → EReal) (bc : Bias.Idx → EReal) (r : Fin 100000) (q : Fin 128) : EReal :=
  (∑ κ : Fin 384, cat (ix2 r κ) * Wc (ix2 κ q)) + bc (ix1 q)

/-- The same as the kernel adds it: the node's and the aggregated edges' products, then a bias row that already holds the
    global features' product. -/
def combKer (x ea : Nodes.Idx → EReal) (wx we : Sq.Idx → EReal) (bcg : Row.Idx → EReal) (r : Fin 100000) (q : Fin 128) : EReal :=
  ((∑ k : Fin 128, x (ix2 r k) * wx (ix2 k q)) + ∑ k : Fin 128, ea (ix2 r k) * we (ix2 k q)) + bcg (ix2 (0 : Fin 1) q)

/-- THE LAW THAT JOINS THE TWO SIDES. When the concatenated row is [x_r | e_r | g] (its three stretches of 128), the kernel's
    two weight blocks are rows 0–127 and 128–255 of W_c, and its bias row is b_c plus g against rows 256–383, the two
    combined rows are equal: split the 384-long sum into its three stretches and regroup the four summands. -/
theorem comb_eq (cat : Cat.Idx → EReal) (Wc : Wide.Idx → EReal) (bc : Bias.Idx → EReal)
    (x ea : Nodes.Idx → EReal) (g : Row.Idx → EReal) (wx we : Sq.Idx → EReal) (bcg : Row.Idx → EReal)
    (hx : ∀ (r : Fin 100000) (k : Fin 128) (κ : Fin 384), κ.val = k.val → cat (ix2 r κ) = x (ix2 r k))
    (he : ∀ (r : Fin 100000) (k : Fin 128) (κ : Fin 384), κ.val = 128 + k.val → cat (ix2 r κ) = ea (ix2 r k))
    (hg : ∀ (r : Fin 100000) (k : Fin 128) (κ : Fin 384), κ.val = 128 + (128 + k.val) → cat (ix2 r κ) = g (ix2 (0 : Fin 1) k))
    (hwx : ∀ (k q : Fin 128) (κ : Fin 384), κ.val = k.val → wx (ix2 k q) = Wc (ix2 κ q))
    (hwe : ∀ (k q : Fin 128) (κ : Fin 384), κ.val = 128 + k.val → we (ix2 k q) = Wc (ix2 κ q))
    (hbcg : ∀ q : Fin 128, bcg (ix2 (0 : Fin 1) q)
        = bc (ix1 q) + ∑ k : Fin 128, g (ix2 (0 : Fin 1) k) * Wc (ix2 (Fin.natAdd 128 (Fin.natAdd 128 k) : Fin 384) q))
    (r : Fin 100000) (q : Fin 128) :
    combKer x ea wx we bcg r q = combRef cat Wc bc r q := by
  unfold combKer combRef
  refine Eq.trans ?_ (sum_thirds_add (fun κ : Fin (128 + (128 + 128)) => cat (ix2 r (κ : Fin 384)) * Wc (ix2 (κ : Fin 384) q)) (bc (ix1 q))).symm
  rw [hbcg q]
  refine congrArg₂ (· + ·) (congrArg₂ (· + ·) (Finset.sum_congr rfl fun k _ => ?_) (Finset.sum_congr rfl fun k _ => ?_))
    (congrArg (bc (ix1 q) + ·) (Finset.sum_congr rfl fun k _ => ?_))
  · rw [hx r k (Fin.castAdd (128 + 128) k) (Fin.coe_castAdd _ _), hwx k q (Fin.castAdd (128 + 128) k) (Fin.coe_castAdd _ _)]
  · rw [he r k (Fin.natAdd 128 (Fin.castAdd 128 k)) (by rw [Fin.coe_natAdd, Fin.coe_castAdd]),
      hwe k q (Fin.natAdd 128 (Fin.castAdd 128 k)) (by rw [Fin.coe_natAdd, Fin.coe_castAdd])]
  · rw [hg r k (Fin.natAdd 128 (Fin.natAdd 128 k)) (by rw [Fin.coe_natAdd, Fin.coe_natAdd])]

end Cert.NodeMlp

end
-- ==== Proof.KernelPayload.lean ====
/-
  What one grid point computes, entry by entry.

  The body loads a block of 5000 node rows x, the same rows of the aggregated edge features e, five 128 × 128 weight
  blocks and four bias rows, and stores
      dense (sp ∘ dense (sp ∘ dense c w1 b1) w2 b2) w3 b3   with   c = (x · wx + e · we) + bc
  row by row: each block product into a zero accumulator is, at (p, q), the sum over k of A_pk W_kq; a bias row is
  broadcast down the 5000 rows; the roundings to bf16 on the way into a product are the identity on the extended reals.
  So entry (p, q) of the stored block is the tower of row p's combined row at q.
-/
import proofs.«158073_j47974784696393_2_alg».proof.Proof.Gen.KernelIdeal.Skeleton
import proofs.«158073_j47974784696393_2_alg».proof.Proof.Spec
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.NodeMlp
/-- The block product's dimension record: [5000,128] × [128,128] → [5000,128], contracting the row's 128 features. -/
abbrev D := dot_S5000x128_S128x128_S5000x128_1_0_0_1_n_n

theorem lhs0 (i : S5000x128.Idx) (κ : D.contr.Idx) : (D.lhsIdx i κ 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs1 (i : S5000x128.Idx) (κ : D.contr.Idx) : (D.lhsIdx i κ 1).val = (κ ⟨0, by decide⟩).val :=
  D.lhsIdx_val_of_single rfl i κ
theorem rhs0 (i : S5000x128.Idx) (κ : D.contr.Idx) : (D.rhsIdx i κ 0).val = (κ ⟨0, by decide⟩).val :=
  D.rhsIdx_val_of_single rfl i κ
theorem rhs1 (i : S5000x128.Idx) (κ : D.contr.Idx) : (D.rhsIdx i κ 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A block product into the zero accumulator, read at (p, q): the sum over the 128 features of A_pk W_kq. -/
theorem blockMatmul_apply (A : FVec Ideal S5000x128 .bf16) (W : FVec Ideal S128x128 .bf16) (p : Fin 5000) (q : Fin 128) :
    matmul D none A W (constant (F := Ideal) S5000x128 .f32 0x00000000#32) (ix2 p q)
      = ∑ k : Fin 128, A (ix2 p k) * W (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 128 rfl rfl).symm k) = ix2 k q := funext fun a => Fin.ext (by
    match a with
    | ⟨0, _⟩ => exact (rhs0 _ _).trans hk
    | ⟨1, _⟩ => exact rhs1 _ _)
  rw [el, er]

/-- A loaded weight block multiplied onto a block of rows, as the body writes it. -/
def blockDot (A : FVec Ideal S5000x128 .bf16) (W : FVec Ideal S128x128 .bf16) : FVec Ideal S5000x128 .f32 :=
  matmul D none A (shapeCast S128x128 W shapeCasts_S128x128_S128x128) (constant (F := Ideal) S5000x128 .f32 0x00000000#32)

theorem blockDot_apply (A : FVec Ideal S5000x128 .bf16) (W : FVec Ideal S128x128 .bf16) (p : Fin 5000) (q : Fin 128) :
    blockDot A W (ix2 p q) = ∑ k : Fin 128, A (ix2 p k) * W (ix2 k q) := by
  unfold blockDot
  rw [shapeCast_self]
  exact blockMatmul_apply A W p q

/-- A loaded bias row broadcast down the block's 5000 rows, as the body writes it. -/
def rowBias (b : FVec Ideal S1x128 .f32) : FVec Ideal S5000x128 .f32 :=
  broadcastTo S5000x128 (shapeCast S1x128 b shapeCasts_S1x128_S1x128) broadcasts_S1x128_S5000x128

theorem rowBias_apply (b : FVec Ideal S1x128 .f32) (p : Fin 5000) (q : Fin 128) :
    rowBias b (ix2 p q) = b (ix2 (0 : Fin 1) q) := by
  unfold rowBias
  rw [shapeCast_self]
  exact broadcastTo_1b_ab_apply b broadcasts_S1x128_S5000x128 p q

/-- The first payload (everything up to the second softplus) is the named pieces composed. -/
theorem pay2_eq (x0 x1 : FVec Ideal S5000x128 .f32) (wx we : FVec Ideal S128x128 .bf16) (bc : FVec Ideal S1x128 .f32)
    (w1 : FVec Ideal S128x128 .bf16) (b1 : FVec Ideal S1x128 .f32) :
    k0_pay2 (F := Ideal) x0 x1 wx we bc w1 b1
      = truncf .bf16 (softplusK (addf (blockDot (truncf .bf16 (addf (addf
          (blockDot (truncf .bf16 x0 bitsLt_bf16_f32) wx)
          (blockDot (truncf .bf16 (shapeCast S5000x128 x1 shapeCasts_S5000x128_S5000x128) bitsLt_bf16_f32) we))
          (rowBias bc)) bitsLt_bf16_f32) w1) (rowBias b1))) bitsLt_bf16_f32 := rfl

/-- The stored payload (the second softplus layer's product and the last layer) is the named pieces composed. -/
theorem pay1_eq (h1 : FVec Ideal S5000x128 .bf16) (w2 : FVec Ideal S128x128 .bf16) (b2 : FVec Ideal S1x128 .f32)
    (w3 : FVec Ideal S128x128 .bf16) (b3 : FVec Ideal S1x128 .f32) :
    k0_pay1 (F := Ideal) h1 w2 b2 w3 b3
      = addf (blockDot (truncf .bf16 (softplusK (addf (blockDot h1 w2) (rowBias b2))) bitsLt_bf16_f32) w3) (rowBias b3) := rfl

/-- ENTRY (p, q) OF THE STORED BLOCK: the tower of row p's combined row, at q. -/
theorem payload_apply (x0 x1 : FVec Ideal S5000x128 .f32) (wx we : FVec Ideal S128x128 .bf16) (bc : FVec Ideal S1x128 .f32)
    (w1 : FVec Ideal S128x128 .bf16) (b1 : FVec Ideal S1x128 .f32) (w2 : FVec Ideal S128x128 .bf16) (b2 : FVec Ideal S1x128 .f32)
    (w3 : FVec Ideal S128x128 .bf16) (b3 : FVec Ideal S1x128 .f32) (p : Fin 5000) (q : Fin 128) :
    k0_pay1 (F := Ideal) (k0_pay2 (F := Ideal) x0 x1 wx we bc w1 b1) w2 b2 w3 b3 (ix2 p q)
      = tower (fun q' => ((∑ k : Fin 128, x0 (ix2 p k) * wx (ix2 k q')) + ∑ k : Fin 128, x1 (ix2 p k) * we (ix2 k q'))
                + bc (ix2 (0 : Fin 1) q'))
          w1 w2 w3 (fun q' => b1 (ix2 (0 : Fin 1) q')) (fun q' => b2 (ix2 (0 : Fin 1) q')) (fun q' => b3 (ix2 (0 : Fin 1) q')) q := by
  rw [pay1_eq, pay2_eq]
  simp only [addf_apply, blockDot_apply, rowBias_apply, truncf_apply, softplusK_apply, shapeCast_self]
  rfl

end Cert.KernelIdeal.Payload

end
-- ==== Proof.KernelArray.lean ====
/-
  From the twenty blocks to the whole result array.

  Grid point t stages rows 5000 t … 5000 t + 4999 of the node array and of the aggregated edge array, the whole of
  every weight block and bias row, and writes rows 5000 t … 5000 t + 4999 of the result. Entry (p, q) of what it
  writes is the tower of the combined row of node 5000 t + p; the twenty row blocks cover the 100000 rows (row r
  lies in block r / 5000). So the result array is, entry by entry, the tower of each node's combined row, the
  combined rows taken from the arrays as the region finds them.
-/
import proofs.«158073_j47974784696393_2_alg».proof.Proof.Gen.KernelIdeal.Value
import proofs.«158073_j47974784696393_2_alg».proof.Proof.KernelPayload
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.KernelIdeal.Payload Cert.NodeMlp

variable (m : (ℓ : Loc nD τ sig) → Buf (Elt Ideal) ℓ) (ρ : Dev nD → PrngReg)

theorem hz : (![0, 0] : Fin 2 → Nat) = fun _ => 0 := funext fun a => by fin_cases a <;> rfl

/-- The printed index maps over the twenty points: the three row-blocked windows sit at block (t, 0), every other
    window at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_11.index t (0 : Fin 2) = t.val ∧ win0_11.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Row p of block t is row 5000 t + p of the array. -/
def rowOf (t : Fin cfg0.N) (p : Fin 5000) : Fin 100000 :=
  ⟨5000 * t.val + p.val, by
    have ht : t.val < cfg0.N := t.isLt
    have hN : cfg0.N = 20 := N_0
    have hp : p.val < 5000 := p.isLt
    omega⟩

/-! ## The staged blocks, read -/

/-- A row-blocked input window's block: entry (p, k) is the array's entry (5000 t + p, k). -/
theorem iblk0_apply (c : Dev nD) (t : Fin cfg0.N) (p : Fin 5000) (k : Fin 128) :
    (iblk m c 0 t : S5000x128.Idx → EReal) (ix2 p k) = (V m c main_arg0 : S100000x128.Idx → EReal) (ix2 (rowOf t p) k) := by
  obtain ⟨⟨e0, e1⟩, -⟩ := idx_facts t
  unfold iblk
  rw [View.read_apply]
  show (V m c main_arg0 : S100000x128.Idx → EReal) _ = _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

theorem iblk1_apply (c : Dev nD) (t : Fin cfg0.N) (p : Fin 5000) (k : Fin 128) :
    (iblk m c 1 t : S5000x128.Idx → EReal) (ix2 p k) = (V m c main_v9 : S100000x128.Idx → EReal) (ix2 (rowOf t p) k) := by
  obtain ⟨-, ⟨e0, e1⟩, -⟩ := idx_facts t
  unfold iblk
  rw [View.read_apply]
  show (V m c main_v9 : S100000x128.Idx → EReal) _ = _
  refine congrArg _ (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- A weight block or a bias row is staged whole at every point: its block is the array. -/
theorem iblk2_eq (c : Dev nD) (t : Fin cfg0.N) :
    (iblk m c 2 t : S128x128.Idx → EReal) = (V m c main_v19 : S128x128.Idx → EReal) := by
  obtain ⟨-, -, -, ⟨e0, e1⟩, -⟩ := idx_facts t
  funext y
  unfold iblk
  rw [View.read_apply]
  show (V m c main_v19 : S128x128.Idx → EReal) _ = _
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem iblk3_eq (c : Dev nD) (t : Fin cfg0.N) :
    (iblk m c 3 t : S128x128.Idx → EReal) = (V m c main_v20 : S128x128.Idx → EReal) := by
  obtain ⟨-, -, -, -, ⟨e0, e1⟩, -⟩ := idx_facts t
  funext y
  unfold iblk
  rw [View.read_apply]
  show (V m c main_v20 : S128x128.Idx → EReal) _ = _
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem iblk4_eq (c : Dev nD) (t : Fin cfg0.N) :
    (iblk m c 4 t : S1x128.Idx → EReal) = (V m c main_v15 : S1x128.Idx → EReal) := by
  obtain ⟨-, -, -, -, -, ⟨e0, e1⟩, -⟩ := idx_facts t
  funext y
  unfold iblk
  rw [View.read_apply]
  show (V m c main_v15 : S1x128.Idx → EReal) _ = _
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem iblk5_eq (c : Dev nD) (t : Fin cfg0.N) :
    (iblk m c 5 t : S128x128.Idx → EReal) = (V m c main_v21 : S128x128.Idx → EReal) := by
  obtain ⟨-, -, -, -, -, -, ⟨e0, e1⟩, -⟩ := idx_facts t
  funext y
  unfold iblk
  rw [View.read_apply]
  show (V m c main_v21 : S128x128.Idx → EReal) _ = _
  refine congrArg _ (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem iblk6_eq (c : Dev nD) (t : Fin cfg0.N) :
    (iblk m c 6 t : S1x128.Idx → EReal) = (V m c main_v16 : S1x128.Idx → EReal) := by
  obtain ⟨-, -, -, -, -, -, -, ⟨e0, e1⟩, -⟩ := idx_facts t
  funext y
  unfold iblk
  rw [View.read_apply]
  show (V m c main_v16 : S1x128.Idx → EReal) _ = _
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

theorem iblk7_eq (c : Dev nD) (t : Fin cfg0.N) :
    (iblk m c 7 t : S128x128.Idx → EReal) = (V m c main_v22 : S128x128.Idx → EReal) := by
  obtain ⟨-, -, -, -, -, -, -, -, ⟨e0, e1⟩, -⟩ := idx_facts t
  funext y
  unfold iblk
  rw [View.read_apply]
  show (V m c main_v22 : S128x128.Idx → EReal) _ = _
  refine congrArg _ (funext fun a => Fin.ext ?_)
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

theorem iblk8_eq (c : Dev nD) (t : Fin cfg0.N) :
    (iblk m c 8 t : S1x128.Idx → EReal) = (V m c main_v17 : S1x128.Idx → EReal) := by
  obtain ⟨-, -, -, -, -, -, -, -, -, ⟨e0, e1⟩, -⟩ := idx_facts t
  funext y
  unfold iblk
  rw [View.read_apply]
  show (V m c main_v17 : S1x128.Idx → EReal) _ = _
  refine congrArg _ (funext fun a => Fin.ext ?_)
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

theorem iblk9_eq (c : Dev nD) (t : Fin cfg0.N) :
    (iblk m c 9 t : S128x128.Idx → EReal) = (V m c main_v23 : S128x128.Idx → EReal) := by
  obtain ⟨-, -, -, -, -, -, -, -, -, -, ⟨e0, e1⟩, -⟩ := idx_facts t
  funext y
  unfold iblk
  rw [View.read_apply]
  show (V m c main_v23 : S128x128.Idx → EReal) _ = _
  refine congrArg _ (funext fun a => Fin.ext ?_)
  match a with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega

theorem iblk10_eq (c : Dev nD) (t : Fin cfg0.N) :
    (iblk m c 10 t : S1x128.Idx → EReal) = (V m c main_v18 : S1x128.Idx → EReal) := by
  obtain ⟨-, -, -, -, -, -, -, -, -, -, -, ⟨e0, e1⟩⟩ := idx_facts t
  funext y
  unfold iblk
  rw [View.read_apply]
  show (V m c main_v18 : S1x128.Idx → EReal) _ = _
  refine congrArg _ (funext fun a => Fin.ext ?_)
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

/-! ## The whole result -/

/-- The combined rows, from the arrays as the region finds them. -/
def combRows (c : Dev nD) : Fin 100000 → Fin 128 → EReal :=
  combKer (V m c main_arg0 : S100000x128.Idx → EReal) (V m c main_v9 : S100000x128.Idx → EReal)
    (V m c main_v19 : S128x128.Idx → EReal) (V m c main_v20 : S128x128.Idx → EReal) (V m c main_v15 : S1x128.Idx → EReal)

/-- THE RESULT ARRAY as one function of the arrays the region finds: entry (r, q) is the tower of node r's combined row. -/
def whole (c : Dev nD) : S100000x128.Idx → EReal :=
  result (combRows m c) (V m c main_v21 : S128x128.Idx → EReal) (V m c main_v22 : S128x128.Idx → EReal) (V m c main_v23 : S128x128.Idx → EReal)
    (fun q => (V m c main_v16 : S1x128.Idx → EReal) (ix2 (0 : Fin 1) q))
    (fun q => (V m c main_v17 : S1x128.Idx → EReal) (ix2 (0 : Fin 1) q))
    (fun q => (V m c main_v18 : S1x128.Idx → EReal) (ix2 (0 : Fin 1) q))

/-- WHAT POINT t WRITES BACK is block t of the whole result. -/
theorem flushed_eq (c : Dev nD) (t : Fin cfg0.N) :
    (dats m 0 c).flushed 11 t = ((cfg0.win 11).blk t).view.read (Elt Ideal) (whole m c) := by
  obtain ⟨-, -, ⟨e0, e1⟩, -⟩ := idx_facts t
  rw [Value.flushed11]
  unfold out0_11
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  have hemb : ((cfg0.win 11).blk t).view.emb (ix2 p q) = (ix2 (rowOf t p) q : S100000x128.Idx) := by
    funext a; apply Fin.ext
    match a with
    | ⟨0, _⟩ => show win0_11.index t (0 : Fin 2) * 5000 + 1 * p.val = 5000 * t.val + p.val; rw [e0]; omega
    | ⟨1, _⟩ => show win0_11.index t (1 : Fin 2) * 128 + 1 * q.val = q.val; rw [e1]; omega
  show k0_pay1 (F := Ideal) (k0_pay2 (F := Ideal) (iblk m c 0 t) (iblk m c 1 t) (iblk m c 2 t) (iblk m c 3 t) (iblk m c 4 t) (iblk m c 5 t) (iblk m c 6 t))
        (iblk m c 7 t) (iblk m c 8 t) (iblk m c 9 t) (iblk m c 10 t) (ix2 p q)
      = whole m c (((cfg0.win 11).blk t).view.emb (ix2 p q))
  rw [hemb]
  refine (payload_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) p q).trans ?_
  unfold whole
  rw [result_ix2]
  simp only [iblk0_apply m c t, iblk1_apply m c t, iblk2_eq m c t, iblk3_eq m c t, iblk4_eq m c t, iblk5_eq m c t, iblk6_eq m c t,
    iblk7_eq m c t, iblk8_eq m c t, iblk9_eq m c t, iblk10_eq m c t]
  rfl

/-- An index of the result array is in point t's block iff each coordinate is in the block's range on its axis. -/
theorem mem_blk (t : Fin cfg0.N) (i : S100000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v24).slice (win0_11.rect t)).set ↔ _
  rw [View.set_slice_whole, Rect.mem_set_unit]
  exact Iff.rfl

/-- Every row lies in some point's block: row r in block r / 5000. -/
theorem cover (i : S100000x128.Idx) : ∃ t : Fin cfg0.N, (cfg0.win 11).flush t = true ∧ i ∈ ((cfg0.win 11).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, ⟨e0, e1⟩, -⟩ := idx_facts t
  have ht : t.val = (i 0).val / 5000 := rfl
  refine ⟨t, flush0_11 t, ?_⟩
  rw [mem_blk]
  intro a
  match a with
  | ⟨0, _⟩ => show win0_11.index t (0 : Fin 2) * 5000 ≤ (i 0).val ∧ (i 0).val < win0_11.index t (0 : Fin 2) * 5000 + 5000; rw [e0, ht]; omega
  | ⟨1, _⟩ => show win0_11.index t (1 : Fin 2) * 128 ≤ (i 1).val ∧ (i 1).val < win0_11.index t (1 : Fin 2) * 128 + 128; rw [e1]; omega

/-- THE ARRAY after the run is the whole result. -/
theorem final (c : Dev nD) : (dats m 0 c).arrAt 11 cfg0.N = whole m c :=
  (dats m 0 c).arrAt_eq_of_cover 11 (whole m c) (fun t _ => flushed_eq m c t) cover

/-- The kernel's run, read: the result array at the whole result, the arguments unchanged. -/
theorem run : θ_run defs (onTc (τ := τ) (main (F := Ideal))) ⟨m, fun _ => 0, ρ⟩ fun r => ∀ c : Dev nD,
      r.2.mem ((c : Thread nD τ).loc main_v24) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.Whole

end
-- ==== Proof.KernelHost.lean ====
/-
  The arrays the region finds, as terms of the arguments.

  Before the launch the host program writes every array the kernel's windows stage except the node array: the
  aggregated edge features (a scatter-add of the edge features into the node slots), the first two 128-row slices of
  W_c and the three layer weights rounded to bf16 (the identity on the extended reals), the combine bias row
  b_c + g · W_c[256:384], and the three layer biases as rows. Each is read here once off the host operations.
-/
import proofs.«158073_j47974784696393_2_alg».proof.Proof.Gen.KernelIdeal.Frame
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx

noncomputable section

open Idealize.ShloMosaic Idealize.ShloMosaic.TcCoe Idealize.SL.Sem Idealize.ShloMosaic.StableHlo Idealize.ShloMosaic.ValueIdx

namespace Cert.KernelIdeal.HostSide

open Cert.KernelIdeal Cert.KernelIdeal.Gen

variable (m : (ℓ : Loc nD τ sig) → Buf (Elt Ideal) ℓ)

/-- The argument arrays on core c, at their index shapes: node features, edge index, edge features, global row, combine
    weights and bias, and the three layers' weights and biases. -/
abbrev aX (c : Dev nD) : S100000x128.Idx → EReal := m ((c : Thread nD τ).loc main_arg0)
abbrev aIdx (c : Dev nD) : S2x600000.Idx → BitVec 32 := m ((c : Thread nD τ).loc main_arg1)
abbrev aEf (c : Dev nD) : S600000x128.Idx → EReal := m ((c : Thread nD τ).loc main_arg2)
abbrev aG (c : Dev nD) : S1x128.Idx → EReal := m ((c : Thread nD τ).loc main_arg3)
abbrev aWc (c : Dev nD) : S384x128.Idx → EReal := m ((c : Thread nD τ).loc main_arg4)
abbrev aBc (c : Dev nD) : S128.Idx → EReal := m ((c : Thread nD τ).loc main_arg5)
abbrev aW1 (c : Dev nD) : S128x128.Idx → EReal := m ((c : Thread nD τ).loc main_arg6)
abbrev aB1 (c : Dev nD) : S128.Idx → EReal := m ((c : Thread nD τ).loc main_arg7)
abbrev aW2 (c : Dev nD) : S128x128.Idx → EReal := m ((c : Thread nD τ).loc main_arg8)
abbrev aB2 (c : Dev nD) : S128.Idx → EReal := m ((c : Thread nD τ).loc main_arg9)
abbrev aW3 (c : Dev nD) : S128x128.Idx → EReal := m ((c : Thread nD τ).loc main_arg10)
abbrev aB3 (c : Dev nD) : S128.Idx → EReal := m ((c : Thread nD τ).loc main_arg11)

/-- The aggregated edge features as a function of the index array and the edge features: destination slots from row 0 of
    the index array (a negative slot wrapped by the node count), the edge rows added into a zero array at their slots. -/
def edgeAggr (idx : S2x600000.Idx → BitVec 32) (ef : S600000x128.Idx → EReal) : S100000x128.Idx → EReal :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0
      (select (cmpi .slt (shapeCast _ (extractStridedSlice S1x600000 ![0, 0] idx slices_S2x600000_S1x600000_0_0) shapeCasts_S1x600000_S600000)
                 (broadcastInDim S600000 ![] bcast_S_S600000 (constantI S_ 32 0#32)))
        (addi (shapeCast _ (extractStridedSlice S1x600000 ![0, 0] idx slices_S2x600000_S1x600000_0_0) shapeCasts_S1x600000_S600000)
              (broadcastInDim S600000 ![] bcast_S_S600000 (constantI S_ 32 100000#32)))
        (shapeCast _ (extractStridedSlice S1x600000 ![0, 0] idx slices_S2x600000_S1x600000_0_0) shapeCasts_S1x600000_S600000)))
    ef

theorem V_v9 (c : Dev nD) :
    (V m c main_v9 : S100000x128.Idx → EReal)
      = edgeAggr (aIdx m c) (aEf m c) := by
  dsimp only [Gen.V, Gen.hostOps0]; after_results; all_goals rfl

/-! ## The weight blocks: slices of W_c and the layer weights, rounded to bf16 (the identity here) -/

/-- Window 2's array is rows 0–127 of W_c. -/
theorem V_v19_apply (c : Dev nD) (k q : Fin 128) (κ : Fin 384) (h : κ.val = k.val) :
    (V m c main_v19 : S128x128.Idx → EReal) (ix2 k q) = aWc m c (ix2 κ q) := by
  have e : (V m c main_v19 : S128x128.Idx → EReal)
      = extractStridedSlice S128x128 ![0, 0] (aWc m c) slices_S384x128_S128x128_0_0 := by
    dsimp only [Gen.V, Gen.hostOps0]; after_results; all_goals rfl
  refine (congrFun e _).trans ?_
  exact extractStridedSlice_apply ![0, 0] (aWc m c) slices_S384x128_S128x128_0_0 (ix2 k q) (ix2 κ q) (fun a => match a with
    | ⟨0, _⟩ => by show κ.val = 0 + k.val; omega
    | ⟨1, _⟩ => by show q.val = 0 + q.val; omega)

/-- Window 3's array is rows 128–255 of W_c. -/
theorem V_v20_apply (c : Dev nD) (k q : Fin 128) (κ : Fin 384) (h : κ.val = 128 + k.val) :
    (V m c main_v20 : S128x128.Idx → EReal) (ix2 k q) = aWc m c (ix2 κ q) := by
  have e : (V m c main_v20 : S128x128.Idx → EReal)
      = extractStridedSlice S128x128 ![128, 0] (aWc m c) slices_S384x128_S128x128_128_0 := by
    dsimp only [Gen.V, Gen.hostOps0]; after_results; all_goals rfl
  refine (congrFun e _).trans ?_
  exact extractStridedSlice_apply ![128, 0] (aWc m c) slices_S384x128_S128x128_128_0 (ix2 k q) (ix2 κ q) (fun a => match a with
    | ⟨0, _⟩ => by show κ.val = 128 + k.val; omega
    | ⟨1, _⟩ => by show q.val = 0 + q.val; omega)

/-- Windows 5, 7, 9's arrays are W1, W2, W3. -/
theorem V_v21 (c : Dev nD) : (V m c main_v21 : S128x128.Idx → EReal) = aW1 m c := by
  dsimp only [Gen.V, Gen.hostOps0]; after_results; all_goals rfl
theorem V_v22 (c : Dev nD) : (V m c main_v22 : S128x128.Idx → EReal) = aW2 m c := by
  dsimp only [Gen.V, Gen.hostOps0]; after_results; all_goals rfl
theorem V_v23 (c : Dev nD) : (V m c main_v23 : S128x128.Idx → EReal) = aW3 m c := by
  dsimp only [Gen.V, Gen.hostOps0]; after_results; all_goals rfl

/-! ## The bias rows -/

/-- A bias vector laid out as one row, read at column q. -/
theorem biasRow_apply (b : S128.Idx → EReal) (q : Fin 128) :
    broadcastInDim S1x128 ![1] bcast_S128_S1x128_1 b (ix2 (0 : Fin 1) q) = b (ix1 q) :=
  broadcastInDim_apply _ bcast_S128_S1x128_1 b (ix2 (0 : Fin 1) q) (ix1 q) (fun a => match a with
    | ⟨0, _⟩ => by show q.val = if (128 : Nat) = 1 then 0 else q.val; rw [if_neg (by decide)])

theorem V_v16_apply (c : Dev nD) (q : Fin 128) :
    (V m c main_v16 : S1x128.Idx → EReal) (ix2 (0 : Fin 1) q) = aB1 m c (ix1 q) := by
  have e : (V m c main_v16 : S1x128.Idx → EReal) = broadcastInDim S1x128 ![1] bcast_S128_S1x128_1 (aB1 m c) := by
    dsimp only [Gen.V, Gen.hostOps0]; after_results; all_goals rfl
  exact (congrFun e _).trans (biasRow_apply _ q)
theorem V_v17_apply (c : Dev nD) (q : Fin 128) :
    (V m c main_v17 : S1x128.Idx → EReal) (ix2 (0 : Fin 1) q) = aB2 m c (ix1 q) := by
  have e : (V m c main_v17 : S1x128.Idx → EReal) = broadcastInDim S1x128 ![1] bcast_S128_S1x128_1 (aB2 m c) := by
    dsimp only [Gen.V, Gen.hostOps0]; after_results; all_goals rfl
  exact (congrFun e _).trans (biasRow_apply _ q)
theorem V_v18_apply (c : Dev nD) (q : Fin 128) :
    (V m c main_v18 : S1x128.Idx → EReal) (ix2 (0 : Fin 1) q) = aB3 m c (ix1 q) := by
  have e : (V m c main_v18 : S1x128.Idx → EReal) = broadcastInDim S1x128 ![1] bcast_S128_S1x128_1 (aB3 m c) := by
    dsimp only [Gen.V, Gen.hostOps0]; after_results; all_goals rfl
  exact (congrFun e _).trans (biasRow_apply _ q)

/-! ## The combine bias row: b_c plus the global row against rows 256–383 of W_c -/

/-- The row product's dimension record: [1,128] × [128,128] → [1,128]. -/
abbrev Dg := dot_S1x128_S128x128_S1x128_1_0_0_1_n_n

theorem glhs0 (i : S1x128.Idx) (κ : Dg.contr.Idx) : (Dg.lhsIdx i κ 0).val = (i 0).val := by
  unfold DotDims.lhsIdx
  rw [dif_neg (show ¬(0 : Fin S1x128.rank) ∈ Dg.lhsBatch by decide), dif_pos (show (0 : Fin S1x128.rank) ∈ Dg.lhsNonContracting by decide)]
  rfl
theorem glhs1 (i : S1x128.Idx) (κ : Dg.contr.Idx) : (Dg.lhsIdx i κ 1).val = (κ ⟨0, by decide⟩).val :=
  Dg.lhsIdx_val_of_single rfl i κ
theorem grhs0 (i : S1x128.Idx) (κ : Dg.contr.Idx) : (Dg.rhsIdx i κ 0).val = (κ ⟨0, by decide⟩).val :=
  Dg.rhsIdx_val_of_single rfl i κ
theorem grhs1 (i : S1x128.Idx) (κ : Dg.contr.Idx) : (Dg.rhsIdx i κ 1).val = (i 1).val := by
  unfold DotDims.rhsIdx
  rw [dif_neg (show ¬(1 : Fin S128x128.rank) ∈ Dg.rhsBatch by decide), dif_pos (show (1 : Fin S128x128.rank) ∈ Dg.rhsNonContracting by decide)]
  rfl

/-- The host's product of one row with a 128 × 128 matrix, read at column q: the sum over k of l_k R_kq. -/
theorem rowDot_apply (l : FVec Ideal S1x128 .f32) (R : FVec Ideal S128x128 .f32) (q : Fin 128) :
    Host.dotGeneral Dg none l R (ix2 (0 : Fin 1) q) = ∑ k : Fin 128, l (ix2 (0 : Fin 1) k) * R (ix2 k q) := by
  simp only [Host.dotGeneral]
  rw [Ideal.dotGeneral_apply, ← Equiv.sum_comp (contrEquiv1 Dg 128 rfl rfl).symm]
  refine Finset.sum_congr rfl fun k _ => ?_
  have hk := contrEquiv1_symm_val Dg 128 rfl rfl k
  have el : Dg.lhsIdx (ix2 (0 : Fin 1) q) ((contrEquiv1 Dg 128 rfl rfl).symm k) = ix2 (0 : Fin 1) k := funext fun a => Fin.ext (by
    match a with
    | ⟨0, _⟩ => exact glhs0 _ _
    | ⟨1, _⟩ => exact (glhs1 _ _).trans hk)
  have er : Dg.rhsIdx (ix2 (0 : Fin 1) q) ((contrEquiv1 Dg 128 rfl rfl).symm k) = ix2 k q := funext fun a => Fin.ext (by
    match a with
    | ⟨0, _⟩ => exact (grhs0 _ _).trans hk
    | ⟨1, _⟩ => exact grhs1 _ _)
  rw [el, er]

/-- Window 4's array at column q: b_c[q] plus the sum over k of g_k W_c[256 + k, q]. -/
theorem V_v15_apply (c : Dev nD) (q : Fin 128) :
    (V m c main_v15 : S1x128.Idx → EReal) (ix2 (0 : Fin 1) q)
      = aBc m c (ix1 q) + ∑ k : Fin 128, aG m c (ix2 (0 : Fin 1) k) * aWc m c (ix2 (Fin.natAdd 128 (Fin.natAdd 128 k) : Fin 384) q) := by
  have e : (V m c main_v15 : S1x128.Idx → EReal)
      = addf (broadcastInDim S1x128 ![1] bcast_S128_S1x128_1 (aBc m c))
          (Host.dotGeneral (F := Ideal) (φ₁ := .f32) (φ₂ := .f32) Dg none (aG m c)
            (extractStridedSlice S128x128 ![256, 0] (aWc m c) slices_S384x128_S128x128_256_0)) := by
    dsimp only [Gen.V, Gen.hostOps0]; after_results; all_goals rfl
  refine (congrFun e _).trans ?_
  rw [addf_apply, biasRow_apply, rowDot_apply]
  refine congrArg _ (Finset.sum_congr rfl fun k _ => congrArg _ ?_)
  exact extractStridedSlice_apply ![256, 0] (aWc m c) slices_S384x128_S128x128_256_0 (ix2 k q) (ix2 (Fin.natAdd 128 (Fin.natAdd 128 k) : Fin 384) q) (fun a => match a with
    | ⟨0, _⟩ => by show 128 + (128 + k.val) = 256 + k.val; omega
    | ⟨1, _⟩ => by show q.val = 0 + q.val; omega)

end Cert.KernelIdeal.HostSide

end
-- ==== Proof.RefRead.lean ====
/-
  The reference's result, entry by entry.

  The reference concatenates each node's row with its aggregated edge row and the global row, contracts the 384 entries
  against W_c, adds b_c, and applies three dense layers with softplus after the first two. Read at (r, q) through the
  generated one-operation lemmas, its result is the tower of node r's combined row (one 384-long sum) at q. The
  concatenated row read at a column in its first, second or third stretch of 128 is the node's row, the aggregated
  edge row, or the global row there.
-/
import proofs.«158073_j47974784696393_2_alg».proof.Proof.RefReadP
import proofs.«158073_j47974784696393_2_alg».proof.Proof.Spec
import Idealize.ShloMosaic.Lib.Pipeline.Value
import Idealize.ShloMosaic.Lib.ValueIdx

noncomputable section

open Idealize.ShloMosaic Idealize.ShloMosaic.ValueIdx

namespace Cert.ReferenceIdeal.RefValue

open Cert.ReferenceIdeal Cert.ReferenceIdeal.ReadP Cert.NodeMlp
open Cert.ReferenceIdeal.Gen

variable (x0 : (⟨S100000x128, .f32⟩ : BufTy).Contents (Elt Ideal)) (x1 : (⟨S2x600000, .i32⟩ : BufTy).Contents (Elt Ideal))
  (x2 : (⟨S600000x128, .f32⟩ : BufTy).Contents (Elt Ideal)) (x3 : (⟨S1x128, .f32⟩ : BufTy).Contents (Elt Ideal))
  (x4 : (⟨S384x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))

/-- Two index functions of a rank-2 shape agree when their two coordinates do. -/
macro "idx2" : tactic => `(tactic| exact funext fun a => Fin.ext (by match a with | ⟨0, _⟩ => rfl | ⟨1, _⟩ => rfl))
macro "idx1" : tactic => `(tactic| exact funext fun a => Fin.ext (by match a with | ⟨0, _⟩ => rfl))

/-! ## The zero arrays of the two softplus calls -/

theorem zero0 (i : S100000x128.Idx) : val_main_call0_v0 (F := Ideal) i = 0 := by
  rw [val_main_call0_v0_apply, val_main_call0_cst_apply]; exact Ideal.ofBits_zero_f32

theorem zero1 (i : S100000x128.Idx) : val_main_call1_v0 (F := Ideal) i = 0 := by
  rw [val_main_call1_v0_apply, val_main_call1_cst_apply]; exact Ideal.ofBits_zero_f32

/-! ## The two softplus calls, read at an index -/

theorem v21_apply (i : S100000x128.Idx) :
    val_main_v21 (F := Ideal) x0 x1 x2 x3 x4 x5 x6 x7 i = sp (val_main_v20 (F := Ideal) x0 x1 x2 x3 x4 x5 x6 x7 i) := by
  show softplusH (val_main_call0_v0 (F := Ideal)) (val_main_v20 (F := Ideal) x0 x1 x2 x3 x4 x5 x6 x7) i = _
  exact softplusH_apply _ _ i (zero0 i)

theorem v26_apply (i : S100000x128.Idx) :
    val_main_v26 (F := Ideal) x0 x1 x2 x3 x4 x5 x6 x7 x8 x9 i = sp (val_main_v25 (F := Ideal) x0 x1 x2 x3 x4 x5 x6 x7 x8 x9 i) := by
  show softplusH (val_main_call1_v0 (F := Ideal)) (val_main_v25 (F := Ideal) x0 x1 x2 x3 x4 x5 x6 x7 x8 x9) i = _
  exact softplusH_apply _ _ i (zero1 i)

/-! ## The three dense layers, read at (r, q) -/

/-- The last layer: h2's row r against W3, plus b3. -/
theorem v30_apply (r : Fin 100000) (q : Fin 128) :
    val_main_v30 (F := Ideal) x0 x1 x2 x3 x4 x5 x6 x7 x8 x9 x10 x11 (ix2 r q)
      = dense (fun k => val_main_v26 (F := Ideal) x0 x1 x2 x3 x4 x5 x6 x7 x8 x9 (ix2 r k)) x10 (fun q' => x11 (ix1 q')) q := by
  rw [val_main_v30_apply, val_main_v27_apply, val_main_v29_apply, val_main_v28_apply]
  have e1 : ∀ k, lidx_main_v27 (ix2 r q) k = ix2 r k := fun k => by idx2
  have e2 : ∀ k, ridx_main_v27 (ix2 r q) k = ix2 k q := fun k => by idx2
  have e3 : idx_main_v28 (idx_main_v29 (ix2 r q)) = ix1 q := by idx1
  simp only [e1, e2, e3]
  rfl

/-- The second layer before its softplus: h1's row r against W2, plus b2. -/
theorem v25_apply (r : Fin 100000) (q : Fin 128) :
    val_main_v25 (F := Ideal) x0 x1 x2 x3 x4 x5 x6 x7 x8 x9 (ix2 r q)
      = dense (fun k => val_main_v21 (F := Ideal) x0 x1 x2 x3 x4 x5 x6 x7 (ix2 r k)) x8 (fun q' => x9 (ix1 q')) q := by
  rw [val_main_v25_apply, val_main_v22_apply, val_main_v24_apply, val_main_v23_apply]
  have e1 : ∀ k, lidx_main_v22 (ix2 r q) k = ix2 r k := fun k => by idx2
  have e2 : ∀ k, ridx_main_v22 (ix2 r q) k = ix2 k q := fun k => by idx2
  have e3 : idx_main_v23 (idx_main_v24 (ix2 r q)) = ix1 q := by idx1
  simp only [e1, e2, e3]
  rfl

/-- The first layer before its softplus: the combined row r against W1, plus b1. -/
theorem v20_apply (r : Fin 100000) (q : Fin 128) :
    val_main_v20 (F := Ideal) x0 x1 x2 x3 x4 x5 x6 x7 (ix2 r q)
      = dense (fun k => val_main_v16 (F := Ideal) x0 x1 x2 x3 x4 x5 (ix2 r k)) x6 (fun q' => x7 (ix1 q')) q := by
  rw [val_main_v20_apply, val_main_v17_apply, val_main_v19_apply, val_main_v18_apply]
  have e1 : ∀ k, lidx_main_v17 (ix2 r q) k = ix2 r k := fun k => by idx2
  have e2 : ∀ k, ridx_main_v17 (ix2 r q) k = ix2 k q := fun k => by idx2
  have e3 : idx_main_v18 (idx_main_v19 (ix2 r q)) = ix1 q := by idx1
  simp only [e1, e2, e3]
  rfl

/-- The combined row: the concatenated row r against W_c (384 terms), plus b_c. -/
theorem v16_apply (r : Fin 100000) (q : Fin 128) :
    val_main_v16 (F := Ideal) x0 x1 x2 x3 x4 x5 (ix2 r q)
      = combRef (val_main_v12 (F := Ideal) x0 x1 x2 x3) x4 x5 r q := by
  rw [val_main_v16_apply, val_main_v13_apply, val_main_v15_apply, val_main_v14_apply]
  have e1 : ∀ k, lidx_main_v13 (ix2 r q) k = ix2 r k := fun k => by idx2
  have e2 : ∀ k, ridx_main_v13 (ix2 r q) k = ix2 k q := fun k => by idx2
  have e3 : idx_main_v14 (idx_main_v15 (ix2 r q)) = ix1 q := by idx1
  simp only [e1, e2, e3]
  rfl

/-- THE REFERENCE'S RESULT at (r, q): the tower of node r's combined row. -/
theorem result_apply (r : Fin 100000) (q : Fin 128) :
    val_main_v30 (F := Ideal) x0 x1 x2 x3 x4 x5 x6 x7 x8 x9 x10 x11 (ix2 r q)
      = tower (combRef (val_main_v12 (F := Ideal) x0 x1 x2 x3) x4 x5 r) x6 x8 x10
          (fun q' => x7 (ix1 q')) (fun q' => x9 (ix1 q')) (fun q' => x11 (ix1 q')) q := by
  rw [v30_apply]
  simp only [v26_apply, v25_apply, v21_apply, v20_apply, v16_apply]
  rfl

/-- As a whole array. -/
theorem result_eq :
    val_main_v30 (F := Ideal) x0 x1 x2 x3 x4 x5 x6 x7 x8 x9 x10 x11
      = result (combRef (val_main_v12 (F := Ideal) x0 x1 x2 x3) x4 x5) x6 x8 x10
          (fun q' => x7 (ix1 q')) (fun q' => x9 (ix1 q')) (fun q' => x11 (ix1 q')) := by
  funext i
  obtain ⟨r, q, rfl⟩ : ∃ (r : Fin 100000) (q : Fin 128), i = ix2 r q := ⟨i 0, i 1, eq_ix2 i⟩
  rw [result_apply, result_ix2]

/-! ## The concatenated row, stretch by stretch -/

/-- A column in the first stretch reads the node's row. -/
theorem cat_first (r : Fin 100000) (k : Fin 128) (κ : Fin 384) (h : κ.val = k.val) :
    val_main_v12 (F := Ideal) x0 x1 x2 x3 (ix2 r κ) = x0 (ix2 r k) := by
  unfold val_main_v12
  refine concatenate_apply_piece (t := S100000x384) (1 : Fin 2)
    [⟨S100000x128, x0⟩, ⟨S100000x128, val_main_v9 (F := Ideal) x1 x2⟩, ⟨S100000x128, val_main_v11 (F := Ideal) x3⟩]
    concatenates_S100000x128_S100000x128_S100000x128_S100000x384_d1
    (ix2 r κ) 0 (by show (0 : Nat) < 3; decide) S100000x128 x0 rfl rfl 0 rfl (ix2 r k)
    (fun b hb => by match b with | ⟨0, _⟩ => rfl | ⟨1, _⟩ => exact absurd rfl hb) ?_
  show 0 + k.val = κ.val
  omega

/-- A column in the second stretch reads the aggregated edge row. -/
theorem cat_second (r : Fin 100000) (k : Fin 128) (κ : Fin 384) (h : κ.val = 128 + k.val) :
    val_main_v12 (F := Ideal) x0 x1 x2 x3 (ix2 r κ) = val_main_v9 (F := Ideal) x1 x2 (ix2 r k) := by
  unfold val_main_v12
  refine concatenate_apply_piece (t := S100000x384) (1 : Fin 2)
    [⟨S100000x128, x0⟩, ⟨S100000x128, val_main_v9 (F := Ideal) x1 x2⟩, ⟨S100000x128, val_main_v11 (F := Ideal) x3⟩]
    concatenates_S100000x128_S100000x128_S100000x128_S100000x384_d1
    (ix2 r κ) 1 (by show (1 : Nat) < 3; decide) S100000x128 (val_main_v9 (F := Ideal) x1 x2) rfl rfl 128 rfl (ix2 r k)
    (fun b hb => by match b with | ⟨0, _⟩ => rfl | ⟨1, _⟩ => exact absurd rfl hb) ?_
  show 128 + k.val = κ.val
  omega

/-- A column in the third stretch reads the global row. -/
theorem cat_third (r : Fin 100000) (k : Fin 128) (κ : Fin 384) (h : κ.val = 128 + (128 + k.val)) :
    val_main_v12 (F := Ideal) x0 x1 x2 x3 (ix2 r κ) = x3 (ix2 (0 : Fin 1) k) := by
  have hg : val_main_v11 (F := Ideal) x3 (ix2 r k) = x3 (ix2 (0 : Fin 1) k) := by
    rw [val_main_v11_apply, val_main_v10_apply]
    refine congrArg x3 (funext fun a => Fin.ext ?_)
    match a with
    | ⟨0, _⟩ => rfl
    | ⟨1, _⟩ =>
      show (r.val * 128 + k.val) % 128 = k.val
      have hk : k.val < 128 := k.isLt
      omega
  rw [← hg]
  unfold val_main_v12
  refine concatenate_apply_piece (t := S100000x384) (1 : Fin 2)
    [⟨S100000x128, x0⟩, ⟨S100000x128, val_main_v9 (F := Ideal) x1 x2⟩, ⟨S100000x128, val_main_v11 (F := Ideal) x3⟩]
    concatenates_S100000x128_S100000x128_S100000x128_S100000x384_d1
    (ix2 r κ) 2 (by show (2 : Nat) < 3; decide) S100000x128 (val_main_v11 (F := Ideal) x3) rfl rfl 256 rfl (ix2 r k)
    (fun b hb => by match b with | ⟨0, _⟩ => rfl | ⟨1, _⟩ => exact absurd rfl hb) ?_
  show 256 + k.val = κ.val
  omega

end Cert.ReferenceIdeal.RefValue

end
-- ==== Proof.Bridge.lean ====
/-
  The two results are one array.

  The kernel's result is the tower of each node's combined row taken from the arrays the region finds; the reference's is
  the tower of each node's combined row taken as one 384-long contraction of the concatenated row. The arrays the region
  finds are, by the host operations before the launch, exactly the pieces the law of the combined rows asks for: the
  concatenated row's three stretches are the node row, the aggregated edge row (the same scatter-add on both sides) and
  the global row; the kernel's two weight blocks are the first two 128-row slices of W_c; its bias row is b_c plus the
  global row against the third slice. The layer weights and biases are the arguments themselves.
-/
import proofs.«158073_j47974784696393_2_alg».proof.Proof.KernelArray
import proofs.«158073_j47974784696393_2_alg».proof.Proof.KernelHost
import proofs.«158073_j47974784696393_2_alg».proof.Proof.RefRead

noncomputable section

open Idealize.ShloMosaic Idealize.ShloMosaic.TcCoe Idealize.SL.Sem Idealize.ShloMosaic.ValueIdx

namespace Cert.Bridge

open Cert.KernelIdeal Cert.KernelIdeal.Gen Cert.KernelIdeal.HostSide Cert.KernelIdeal.Whole Cert.NodeMlp

variable (m : (ℓ : Loc nD τ sig) → Buf (Elt Ideal) ℓ)

/-- The aggregated edge features are one term on both sides: the same scatter-add of the same operands. -/
theorem edgeAggr_eq (idx : S2x600000.Idx → BitVec 32) (ef : S600000x128.Idx → EReal) :
    edgeAggr idx ef = Cert.ReferenceIdeal.ReadP.val_main_v9 (F := Ideal) idx ef := rfl

/-- The kernel's combined rows are the reference's. -/
theorem combRows_eq (c : Dev nD) :
    combRows m c
      = combRef (Cert.ReferenceIdeal.ReadP.val_main_v12 (F := Ideal) (aX m c) (aIdx m c) (aEf m c) (aG m c)) (aWc m c) (aBc m c) := by
  funext r q
  unfold combRows
  refine comb_eq (Cert.ReferenceIdeal.ReadP.val_main_v12 (F := Ideal) (aX m c) (aIdx m c) (aEf m c) (aG m c)) (aWc m c) (aBc m c)
    (V m c main_arg0 : S100000x128.Idx → EReal) (V m c main_v9 : S100000x128.Idx → EReal) (aG m c)
    (V m c main_v19 : S128x128.Idx → EReal) (V m c main_v20 : S128x128.Idx → EReal) (V m c main_v15 : S1x128.Idx → EReal)
    (fun r k κ h => ?_) (fun r k κ h => ?_) (fun r k κ h => ?_)
    (fun k q κ h => V_v19_apply m c k q κ h) (fun k q κ h => V_v20_apply m c k q κ h) (fun q => V_v15_apply m c q) r q
  · rw [Cert.ReferenceIdeal.RefValue.cat_first (aX m c) (aIdx m c) (aEf m c) (aG m c) r k κ h, V_main_arg0 m c]
  · rw [Cert.ReferenceIdeal.RefValue.cat_second (aX m c) (aIdx m c) (aEf m c) (aG m c) r k κ h, V_v9 m c, edgeAggr_eq]
  · exact Cert.ReferenceIdeal.RefValue.cat_third (aX m c) (aIdx m c) (aEf m c) (aG m c) r k κ h

/-- THE KERNEL'S RESULT ARRAY IS THE REFERENCE'S RESULT of the same arguments. -/
theorem whole_eq (c : Dev nD) :
    whole m c
      = Cert.ReferenceIdeal.ReadP.val_main_v30 (F := Ideal) (aX m c) (aIdx m c) (aEf m c) (aG m c) (aWc m c) (aBc m c)
          (aW1 m c) (aB1 m c) (aW2 m c) (aB2 m c) (aW3 m c) (aB3 m c) := by
  rw [Cert.ReferenceIdeal.RefValue.result_eq]
  unfold whole
  rw [combRows_eq m c, V_v21 m c, V_v22 m c, V_v23 m c]
  simp only [V_v16_apply m c, V_v17_apply m c, V_v18_apply m c]

end Cert.Bridge

end
-- ==== Proof.lean ====
/-
  The certificate of the node-MLP kernel against its jnp reference, on the extended reals.

  Both programs aggregate the edge features into the node slots by the same scatter-add, then send each node's row
  through a combine layer and three dense layers with softplus after the first two. The reference contracts the
  concatenated row [x_r | e_r | g] against the 384 × 128 matrix W_c in one sum; the kernel contracts x_r and e_r against
  the first two 128-row slices of W_c and adds a bias row into which the host has already folded g against the third
  slice. A sum over 384 indices is the sum of its three stretches of 128, and + on the extended reals is commutative
  and associative, so the two combined rows are equal without any finiteness assumption; everything after the combine
  step is the same function on both sides (the roundings to bf16 are the identity here; the two spellings of softplus
  are one function; a block product into a zero accumulator is the plain sum). The kernel computes its result in twenty
  blocks of 5000 rows, which cover the array.

  The three frames are the generated ones (the reference's is its run with the result dropped); the ideal pass rewrote
  nothing, so the idealization claim is trivial.
-/
import proofs.«158073_j47974784696393_2_alg».proof.Defs
import proofs.«158073_j47974784696393_2_alg».proof.Proof.Gen.Kernel
import proofs.«158073_j47974784696393_2_alg».proof.Proof.Gen.Kernel.Skeleton
import proofs.«158073_j47974784696393_2_alg».proof.Proof.Gen.Kernel.Launch
import proofs.«158073_j47974784696393_2_alg».proof.Proof.Gen.Kernel.Points
import proofs.«158073_j47974784696393_2_alg».proof.Proof.Gen.Kernel.Frame
import proofs.«158073_j47974784696393_2_alg».proof.Proof.Gen.KernelIdeal
import proofs.«158073_j47974784696393_2_alg».proof.Proof.Gen.KernelIdeal.Skeleton
import proofs.«158073_j47974784696393_2_alg».proof.Proof.Gen.KernelIdeal.Launch
import proofs.«158073_j47974784696393_2_alg».proof.Proof.Gen.KernelIdeal.Points
import proofs.«158073_j47974784696393_2_alg».proof.Proof.Gen.KernelIdeal.Frame
import proofs.«158073_j47974784696393_2_alg».proof.Proof.Gen.ReferenceIdeal
import proofs.«158073_j47974784696393_2_alg».proof.Proof.Gen.Pre_finite_inputs
import proofs.«158073_j47974784696393_2_alg».proof.Proof.Gen.KernelIdeal.Value
import proofs.«158073_j47974784696393_2_alg».proof.Proof.Bridge
import Idealize.ShloMosaic.Adequacy
import Idealize.ShloMosaic.Init

noncomputable section

namespace Cert.Proof

open Idealize.ShloMosaic Idealize.SL.Sem Cert.Kernel

/-- The word-level kernel runs and leaves its arguments as they were: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs end with the same result array: the kernel's is the
    tower of every node's combined row, and that is the reference's result of the same arguments. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v30_eq]
  obtain ⟨h0, h1, h2, h3, h4, h5, h6, h7, h8, h9, h10, h11⟩ := hagree c
  rw [h0, h1, h2, h3, h4, h5, h6, h7, h8, h9, h10, h11]
  exact (Cert.Bridge.whole_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
